-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S4096x4096 .f32) (main_arg2 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S256x256 : Shape := ⟨2, ![256, 256]⟩
abbrev S512x4096 : Shape := ⟨2, ![512, 4096]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .f32⟩
  | .local _ .vmem, ⟨0, _⟩ => ⟨S4096x256, .f32⟩
  | .local _ .vmem, ⟨1, _⟩ => ⟨S512x4096, .f32⟩
  | .local _ .vmem, ⟨2, _⟩ => ⟨S512x4096, .f32⟩
  | .local _ .vmem, ⟨3, _⟩ => ⟨S256x256, .f32⟩
  | .local _ .vmem, ⟨4, _⟩ => ⟨S512x256, .f32⟩
  | .local _ .vmem, ⟨5, _⟩ => ⟨S512x256, .f32⟩
  | .local _ .vmem, ⟨6, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  inb_S512x4096_S512x4096_0_0 : ∀ a, (![0, 0] : Fin 2 → Nat) a + S512x4096.size a ≤ S512x4096.size a
  h_S512x4096 : 0 < S512x4096.numel
  inb_S512x256_S512x256_0_0 : ∀ a, (![0, 0] : Fin 2 → Nat) a + S512x256.size a ≤ S512x256.size a
  h_S512x256 : 0 < S512x256.numel
  dot_S4096x256_S256x256_S4096x256_1_0_0_1_n_n_wf : DotDims.WF S4096x256 S256x256 S4096x256 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096x256, .f32⟩
  | .hbm, ⟨7, _⟩ => ⟨S4096x256, .i1⟩
  | .hbm, ⟨8, _⟩ => ⟨S_, .f32⟩
  | .hbm, ⟨9, _⟩ => ⟨S4096x256, .f32⟩
  | .hbm, ⟨10, _⟩ => ⟨S4096x256, .i1⟩
  | .hbm, ⟨11, _⟩ => ⟨S_, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_cst_1 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_v4 : Ref sig .tc := ⟨.hbm, 14, rfl⟩
abbrev main_call0_v5 : Ref sig .tc := ⟨.hbm, 15, rfl⟩
abbrev main_call0_cst_2 : Ref sig .tc := ⟨.hbm, 16, rfl⟩
abbrev main_call0_v6 : Ref sig .tc := ⟨.hbm, 17, rfl⟩
abbrev main_call0_v7 : Ref sig .tc := ⟨.hbm, 18, rfl⟩
abbrev main_v2 : Ref sig .tc := ⟨.hbm, 19, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Pieces.lean ====
/-
  What each case of the kernel body leaves in the carried scratch and in the output block, as the body's own
  arithmetic of the blocks it loads.

  The body has two cases. At the grid's first point it loads the whole of x and of w, stores their product into the
  scratch, reads the scratch back and stores into the output block the exponential linear unit of the product of the
  block of rows of b with it. At every other point it stores nothing into the scratch, and the output block is the
  same arithmetic of the block of rows of b and of what the scratch already holds. Each store covers its buffer whole
  and each load reads its buffer whole, so what a buffer ends holding is the stored value itself.
-/
import proofs.«112365_g34471407517844_cont_8to1_b_523_19_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: the scratch ends holding the product of the two whole blocks. -/
theorem scratch_A (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S4096x256 .f32) (harg5 : arg5.IsWhole) (hc0 : cond0_0 i)
    (x0 : Vec F S4096x256 .f32) (x1 : Vec F S512x4096 .f32) (x2 : Vec F S256x256 .f32) :
    sout0_A_0 c i arg1 harg1 arg2 harg2 arg3 harg3 arg4 harg4 arg5 harg5 hc0 x0 x1 x2 = k0_pay1 x0 x2 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  rw [View.canon_unit_zero (S := S4096x256) hz]
  simp only [View.readAt_eq_ld, harg1.read_unread, harg3.read_unread, View.ld_unit_zero (S := S4096x256) hz,
    View.ld_unit_zero (S := S256x256) hz]

/-- First point: the output block is the second payload of the block of rows and of the product just stored, which
    the body reads back from the scratch. -/
theorem out_A (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S4096x256 .f32) (harg5 : arg5.IsWhole) (hc0 : cond0_0 i)
    (x0 : Vec F S4096x256 .f32) (x1 : Vec F S512x4096 .f32) (x2 : Vec F S256x256 .f32) :
    out0_A_3 c i arg1 harg1 arg2 harg2 arg3 harg3 arg4 harg4 arg5 harg5 hc0 x0 x1 x2 = k0_pay2 x1 (k0_pay1 x0 x2) := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero (S := S512x256) hz, View.readCov_unit_zero (S := S4096x256) _ hz]
  simp only [View.readAt_eq_ld, harg1.read_unread, harg2.read_unread, harg3.read_unread,
    View.ld_unit_zero (S := S4096x256) hz, View.ld_unit_zero (S := S256x256) hz, View.ld_unit_zero (S := S512x4096) hz]

/-- Any other point: the output block is the second payload of the block of rows and of what the scratch holds. -/
theorem out_B (c : Dev nD) (i : grid0.Coords) (arg1 : Memref sig .tc .vmem S4096x256 .f32) (harg1 : arg1.IsWhole) (arg2 : Memref sig .tc .vmem S512x4096 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S4096x256 .f32) (harg5 : arg5.IsWhole) (hc0 : ¬cond0_0 i)
    (x0 : Vec F S4096x256 .f32) (x1 : Vec F S512x4096 .f32) (x2 : Vec F S256x256 .f32) (xs0 : Vec F S4096x256 .f32) :
    out0_B_3 c i arg1 harg1 arg2 harg2 arg3 harg3 arg4 harg4 arg5 harg5 hc0 x0 x1 x2 xs0 = k0_pay2 x1 xs0 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  rw [View.canon_unit_zero (S := S512x256) hz]
  simp only [View.readAt_eq_ld, harg2.read_unread, harg5.read_unread, View.ld_unit_zero (S := S512x4096) hz,
    View.ld_unit_zero (S := S4096x256) hz]

end Cert.KernelIdeal.Pieces

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibMatProd.lean ====
/-
  General lemmas: the product of two matrices over the extended reals as one function read at an index.

  For an [a, k] array L and a [k, n] array R, `mm L R` is the [a, n] array whose entry (p, j) is the sum over q of
  L (p, q) · R (q, j).

  * `mm`, `mm_ix2`: the product and its entry;
  * `mm_congr`: entry (p, j) reads only row p of the left operand and column j of the right one, so a block of rows
    of the product is the product of the block of rows;
  * `hostDot_eq`: the host's plain product, whose dimension record contracts the left operand's columns against the
    right operand's rows, is `mm`;
  * `coreDot_eq`: a matrix-unit product into the zero accumulator, under the same record facts, is `mm`.
  Addition and multiplication on the extended reals are total, so none of this needs finiteness. Nothing here
  mentions a program: the extents are variables and the dimension records are hypotheses.
-/
import proofs.«112365_g34471407517844_cont_8to1_b_523_19_alg».proof.Proof.LibAffine

noncomputable section

namespace Cert.LibMatProd

open Idealize.ShloMosaic Idealize.ShloMosaic.ValueIdx

variable {a k n : ℕ}

/-- The product of an [a, k] array by a [k, n] array: entry (p, j) is the sum over q of L (p, q) · R (q, j). -/
def mm (L : FVec Ideal ⟨2, ![a, k]⟩ .f32) (R : FVec Ideal ⟨2, ![k, n]⟩ .f32) : FVec Ideal ⟨2, ![a, n]⟩ .f32 :=
  fun i => ∑ q : Fin k, L (ix2 (i 0) q) * R (ix2 q (i 1))

theorem mm_ix2 (L : FVec Ideal ⟨2, ![a, k]⟩ .f32) (R : FVec Ideal ⟨2, ![k, n]⟩ .f32) (p : Fin a) (j : Fin n) :
    mm L R (ix2 p j) = ∑ q : Fin k, L (ix2 p q) * R (ix2 q j) := rfl

/-- Entry (p, j) of the product reads only row p of the left operand and column j of the right one. -/
theorem mm_congr {a' : ℕ} (L : FVec Ideal ⟨2, ![a, k]⟩ .f32) (R : FVec Ideal ⟨2, ![k, n]⟩ .f32)
    (L' : FVec Ideal ⟨2, ![a', k]⟩ .f32) (R' : FVec Ideal ⟨2, ![k, n]⟩ .f32) (p : Fin a) (p' : Fin a') (j : Fin n)
    (hl : ∀ q : Fin k, L (ix2 p q) = L' (ix2 p' q)) (hr : ∀ q : Fin k, R (ix2 q j) = R' (ix2 q j)) :
    mm L R (ix2 p j) = mm L' R' (ix2 p' j) := by
  rw [mm_ix2, mm_ix2]
  exact Finset.sum_congr rfl fun q _ => by rw [hl q, hr q]

/-- The host's plain product of an [a, k] by a [k, n] array is `mm`. -/
theorem hostDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    Host.dotGeneral D prec L R = mm L R := by
  funext i
  obtain ⟨p, j, rfl⟩ : ∃ (p : Fin a) (j : Fin n), i = ix2 p j := ⟨i 0, i 1, eq_ix2 i⟩
  rw [Cert.LibAffine.hostDot_ix2 D hr hs hl0 hl1 hr0 hr1, mm_ix2]

/-- A matrix-unit product of an [a, k] by a [k, n] array into the zero accumulator is `mm`. -/
theorem coreDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    FloatOps.matmul D prec L R (constant ⟨2, ![a, n]⟩ .f32 0x00000000#32) = mm L R := by
  funext i
  obtain ⟨p, j, rfl⟩ : ∃ (p : Fin a) (j : Fin n), i = ix2 p j := ⟨i 0, i 1, eq_ix2 i⟩
  rw [Cert.LibAffine.coreDot_ix2 D hr hs hl0 hl1 hr0 hr1, mm_ix2]

end Cert.LibMatProd

end
-- ==== Proof.LibElu.lean ====
/-
  General lemmas: the exponential linear unit over the extended reals, in the two spellings a program writes it.

  The exponential linear unit sends x to x where x > 0 and to exp x - 1 elsewhere (so -inf goes to -1, and +inf
  to +inf).

  * `eluPt`, `eluV`: the function on one extended real, and applied to every entry of an array of any shape;
  * `select_gt_zero`: a select on the one-bit comparison x > 0 is the `if` on 0 < x;
  * `core_elu`: the vector unit's spelling, a select on the comparison x > 0 between x and exp x - 1 with the zero
    and the one splat over the shape, is `eluV`;
  * `host_elu`: the host's spelling, a select on x > 0 between x and 1 · expm1 y, where y is 0 where x > 0 and x
    elsewhere, with the zero and the one rank-0 constants broadcast to the shape, is `eluV`: where x > 0 the outer
    select returns x; elsewhere the inner select returns x, expm1 x is exp x - 1, and 1 · y = y on the extended reals.
  No finiteness is needed. Nothing here mentions a program: the shape is a variable.
-/
import Idealize.ShloMosaic.Lib.IdealHost

noncomputable section

namespace Cert.LibElu

open Idealize.ShloMosaic Idealize.ShloMosaic.ValueIdx

/-- The exponential linear unit at one extended real: x where x > 0, exp x - 1 elsewhere. -/
def eluPt (x : Ideal .f32) : Ideal .f32 := if 0 < x then x else Ideal.exp x - 1

/-- The exponential linear unit applied to every entry of an array. -/
def eluV {s : Shape} (h : FVec Ideal s .f32) : FVec Ideal s .f32 := fun i => eluPt (h i)

theorem eluV_apply {s : Shape} (h : FVec Ideal s .f32) (i : s.Idx) : eluV h i = eluPt (h i) := rfl

/-- Entry i of `eluV h` reads entry i of h only. -/
theorem eluV_congr {s t : Shape} (h : FVec Ideal s .f32) (g : FVec Ideal t .f32) (i : s.Idx) (j : t.Idx) (e : h i = g j) :
    eluV h i = eluV g j := congrArg eluPt e

/-- A select on the comparison x > 0, a one-bit word, is the `if` on 0 < x. -/
theorem select_gt_zero {α : Type} (x : Ideal .f32) (a b : α) :
    Scalar.select (FloatOps.cmpf .ogt x (0 : Ideal .f32)) a b = if 0 < x then a else b := by
  simp only [Scalar.select, Ideal.cmpf_def, Ideal.cmp]
  by_cases hp : (0 : EReal) < x
  · simp [hp]
  · simp [hp]

/-- The vector unit's spelling of the exponential linear unit. -/
theorem core_elu {s : Shape} (h : FVec Ideal s .f32) :
    select (cmpf .ogt h (broadcast s (Scalar.ofBits .f32 0x00000000#32))) h
      (subf (exp h) (broadcast s (Scalar.ofBits .f32 0x3F800000#32))) = eluV h := by
  funext i
  show Scalar.select (FloatOps.cmpf .ogt (h i) (Ideal.ofBits .f32 0x00000000#32)) (h i)
    (Ideal.exp (h i) - Ideal.ofBits .f32 0x3F800000#32) = eluPt (h i)
  rw [Ideal.ofBits_zero_f32, Ideal.ofBits_one_f32, select_gt_zero]
  rfl

/-- The host's spelling of the exponential linear unit. -/
theorem host_elu {s : Shape} (hb : (⟨0, ![]⟩ : Shape).BroadcastsInDim s ![]) (h : FVec Ideal s .f32) :
    select (cmpf .ogt h (broadcastInDim s ![] hb (constant ⟨0, ![]⟩ .f32 0x00000000#32))) h
      (mulf (broadcastInDim s ![] hb (constant ⟨0, ![]⟩ .f32 0x3F800000#32))
        (Host.expm1 (select (cmpf .ogt h (broadcastInDim s ![] hb (constant ⟨0, ![]⟩ .f32 0x00000000#32)))
          (broadcastInDim s ![] hb (constant ⟨0, ![]⟩ .f32 0x00000000#32)) h))) = eluV h := by
  funext i
  show Scalar.select (FloatOps.cmpf .ogt (h i) (Ideal.ofBits .f32 0x00000000#32)) (h i)
    (Ideal.ofBits .f32 0x3F800000#32 *
      (Ideal.exp (Scalar.select (FloatOps.cmpf .ogt (h i) (Ideal.ofBits .f32 0x00000000#32))
        (Ideal.ofBits .f32 0x00000000#32) (h i)) - 1)) = eluPt (h i)
  rw [Ideal.ofBits_zero_f32, Ideal.ofBits_one_f32, select_gt_zero, select_gt_zero, one_mul]
  unfold eluPt
  by_cases hp : (0 : EReal) < h i
  · rw [if_pos hp, if_pos hp]
  · rw [if_neg hp, if_neg hp, if_neg hp]

end Cert.LibElu

end
-- ==== Proof.LibEluMin.lean ====
/-
  General lemma: the exponential linear unit written with a clamped exponent.

  A kernel may write the exponential linear unit as a select on x > 0 between x and exp (min x 0) - 1, the argument
  of the exponential clamped at zero so that the branch not taken never overflows. On the extended reals this is the
  same function as `eluV`: where x > 0 the select returns x; elsewhere x ≤ 0, so min x 0 = x and the other branch is
  exp x - 1. No finiteness is needed. Nothing here mentions a program: the shape is a variable.
-/
import proofs.«112365_g34471407517844_cont_8to1_b_523_19_alg».proof.Proof.LibElu

noncomputable section

namespace Cert.LibEluMin

open Idealize.ShloMosaic Idealize.ShloMosaic.ValueIdx Cert.LibElu

/-- The vector unit's spelling with the exponent clamped at zero: a select on the comparison x > 0 between x and
    exp (min x 0) - 1, the zero and the one splat over the shape, is `eluV`. -/
theorem core_elu_min {s : Shape} (h : FVec Ideal s .f32) :
    select (cmpf .ogt h (broadcast s (Scalar.ofBits .f32 0x00000000#32))) h
      (subf (exp (minimumf h (broadcast s (Scalar.ofBits .f32 0x00000000#32))))
        (broadcast s (Scalar.ofBits .f32 0x3F800000#32))) = eluV h := by
  funext i
  show Scalar.select (FloatOps.cmpf .ogt (h i) (Ideal.ofBits .f32 0x00000000#32)) (h i)
    (Ideal.exp (min (h i) (Ideal.ofBits .f32 0x00000000#32)) - Ideal.ofBits .f32 0x3F800000#32) = eluPt (h i)
  rw [Ideal.ofBits_zero_f32, Ideal.ofBits_one_f32, select_gt_zero]
  unfold eluPt
  by_cases hp : (0 : EReal) < h i
  · rw [if_pos hp, if_pos hp]
  · rw [if_neg hp, if_neg hp, min_eq_left (not_lt.mp hp)]

end Cert.LibEluMin

end
-- ==== Proof.Payloads.lean ====
/-
  The kernel body's two payloads, read at the extended reals.

  The first payload is the matrix-unit product of the whole x block with the whole w block into a zero accumulator:
  the product x · w. The second takes a block of rows of b and a [4096, 256] array h, forms their matrix-unit product
  into a zero accumulator and applies the exponential linear unit with the exponent clamped at zero: elu (b · h).
-/
import proofs.«112365_g34471407517844_cont_8to1_b_523_19_alg».proof.Proof.Gen.KernelIdeal.Skeleton
import proofs.«112365_g34471407517844_cont_8to1_b_523_19_alg».proof.Proof.LibMatProd
import proofs.«112365_g34471407517844_cont_8to1_b_523_19_alg».proof.Proof.LibEluMin

noncomputable section

namespace Cert.KernelIdeal.Payloads

open Cert.KernelIdeal Cert.KernelIdeal.Gen Idealize.ShloMosaic Idealize.ShloMosaic.ValueIdx
open Cert.LibElu Cert.LibMatProd

/-- The first payload is the product of its two operands. -/
theorem pay1_eq (x : Vec Ideal S4096x256 .f32) (w : Vec Ideal S256x256 .f32) :
    k0_pay1 (F := Ideal) x w = mm x w := by
  unfold k0_pay1
  dsimp only
  rw [shapeCast_self]
  exact coreDot_eq dot_S4096x256_S256x256_S4096x256_1_0_0_1_n_n rfl rfl (fun _ _ => rfl) (fun _ _ => rfl)
    (fun _ _ => rfl) (fun _ _ => rfl) none x w

/-- The second payload is the exponential linear unit of the product of its two operands. -/
theorem pay2_eq (b : Vec Ideal S512x4096 .f32) (h : Vec Ideal S4096x256 .f32) :
    k0_pay2 (F := Ideal) b h = eluV (mm b h) := by
  unfold k0_pay2
  dsimp only
  have e : matmul dot_S512x4096_S4096x256_S512x256_1_0_0_1_n_n none b h (constant S512x256 .f32 0x00000000#32)
      = mm b h :=
    coreDot_eq dot_S512x4096_S4096x256_S512x256_1_0_0_1_n_n rfl rfl (fun _ _ => rfl) (fun _ _ => rfl)
      (fun _ _ => rfl) (fun _ _ => rfl) none b h
  rw [e]
  exact Cert.LibEluMin.core_elu_min _

end Cert.KernelIdeal.Payloads

end
-- ==== Proof.LibEluConv.lean ====
/-
  General lemmas: the exponential linear unit of a doubly projected matrix, elu (b · (x · w)), as one function.

  For x of shape [k, c], w of shape [c, n] and b of shape [r, k], the layer is the [r, n] array whose entry (p, j) is
  the exponential linear unit of the sum over q of b (p, q) · (x · w) (q, j).

  * `eluConv`: the layer as a function of its three operands;
  * `eluConv_rows`: entry (p, j) of the layer reads only row p of b, so the exponential linear unit of the product
    of a block of rows of b with x · w is that block of rows of the layer.
  No finiteness is needed. Nothing here mentions a program: the extents are variables.
-/
import proofs.«112365_g34471407517844_cont_8to1_b_523_19_alg».proof.Proof.LibElu
import proofs.«112365_g34471407517844_cont_8to1_b_523_19_alg».proof.Proof.LibMatProd

noncomputable section

namespace Cert.LibEluConv

open Idealize.ShloMosaic Idealize.ShloMosaic.ValueIdx Cert.LibElu Cert.LibMatProd

variable {r k c n : ℕ}

/-- The layer elu (b · (x · w)). -/
def eluConv (x : FVec Ideal ⟨2, ![k, c]⟩ .f32) (b : FVec Ideal ⟨2, ![r, k]⟩ .f32) (w : FVec Ideal ⟨2, ![c, n]⟩ .f32) :
    FVec Ideal ⟨2, ![r, n]⟩ .f32 :=
  eluV (mm b (mm x w))

/-- A block of rows of the layer is the layer's arithmetic on the block of rows of b: if row p' of b' is row p of b,
    entry (p', j) of elu (b' · (x · w)) is entry (p, j) of the layer. -/
theorem eluConv_rows {r' : ℕ} (x : FVec Ideal ⟨2, ![k, c]⟩ .f32) (b : FVec Ideal ⟨2, ![r, k]⟩ .f32)
    (w : FVec Ideal ⟨2, ![c, n]⟩ .f32) (b' : FVec Ideal ⟨2, ![r', k]⟩ .f32) (p : Fin r) (p' : Fin r') (j : Fin n)
    (hb : ∀ q : Fin k, b' (ix2 p' q) = b (ix2 p q)) :
    eluV (mm b' (mm x w)) (ix2 p' j) = eluConv x b w (ix2 p j) :=
  eluV_congr _ _ _ _ (mm_congr b' (mm x w) b (mm x w) p' p j hb fun _ => rfl)

end Cert.LibEluConv

end
-- ==== Proof.KernelValue.lean ====
/-
  The kernel's result array, after its run, is the layer elu (b · (x · w)) of the three argument arrays.

  The grid has eight points; point t writes back rows 512·t … 512·t + 511 of the result. The windows of x and of w
  are the whole arrays at every point, and the window of b at point t is its block of 512 rows. The scratch is
  filled with x · w at the first point and left alone afterwards, so by induction over the points it holds x · w
  after every point; the block written back at point t is therefore the exponential linear unit of the product of
  rows 512·t … of b with x · w, which is that block of rows of the layer (an entry of the layer reads one row of b
  only). The eight blocks cover the result array.
-/
import proofs.«112365_g34471407517844_cont_8to1_b_523_19_alg».proof.Proof.Gen.KernelIdeal.Value
import proofs.«112365_g34471407517844_cont_8to1_b_523_19_alg».proof.Proof.Pieces
import proofs.«112365_g34471407517844_cont_8to1_b_523_19_alg».proof.Proof.Payloads
import proofs.«112365_g34471407517844_cont_8to1_b_523_19_alg».proof.Proof.LibEluConv
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Value Cert.KernelIdeal.Pieces Cert.KernelIdeal.Payloads
open Cert.LibElu Cert.LibMatProd Cert.LibEluConv

variable (m : (ℓ : Loc nD τ sig) → Buf (Elt Ideal) ℓ) (ρ : Dev nD → PrngReg)

/-- The three argument arrays on core c. -/
abbrev X (c : Dev nD) : FVec Ideal S4096x256 .f32 := V m c main_arg0
abbrev B (c : Dev nD) : FVec Ideal S4096x4096 .f32 := V m c main_arg1
abbrev W (c : Dev nD) : FVec Ideal S256x256 .f32 := V m c main_arg2

/-- The block indices over the grid: the windows of x and w stay at block (0, 0); the window of b and the output
    window are at block (t, 0) at point t. -/
theorem idx_facts : ∀ t : Fin cfg0.N,
    win0_0.index t (0 : Fin 2) = 0 ∧ win0_0.index t (1 : Fin 2) = 0
    ∧ win0_2.index t (0 : Fin 2) = 0 ∧ win0_2.index t (1 : Fin 2) = 0
    ∧ win0_1.index t (0 : Fin 2) = t.val ∧ win0_1.index t (1 : Fin 2) = 0
    ∧ win0_3.index t (0 : Fin 2) = t.val ∧ win0_3.index t (1 : Fin 2) = 0 :=
  (by decide +kernel : ∀ t : Fin grid0.N, _)

/-- The row of the arrays that row p of point t's block is: 512·t + p. -/
def rowOf (t : Fin cfg0.N) (p : Fin 512) : Fin 4096 :=
  ⟨t.val * 512 + p.val, by
    have h1 := lt_of_lt_of_eq t.isLt (show cfg0.N = 8 from N_0)
    have h2 := p.isLt
    omega⟩

/-- The window of x is the whole of x at every point. -/
theorem iblk0_eq (c : Dev nD) (t : Fin cfg0.N) : (iblk m c 0 t : Vec Ideal S4096x256 .f32) = X m c := by
  obtain ⟨e0, e1, -⟩ := idx_facts t
  funext y
  show V m c main_arg0 (((cfg0.win 0).blk t).view.emb y) = V m c main_arg0 y
  refine congrArg _ ?_
  funext a; apply Fin.ext
  match a with
  | ⟨0, _⟩ => show win0_0.index t (0 : Fin 2) * 4096 + 1 * (y 0).val = (y 0).val; omega
  | ⟨1, _⟩ => show win0_0.index t (1 : Fin 2) * 256 + 1 * (y 1).val = (y 1).val; omega

/-- The window of w is the whole of w at every point. -/
theorem iblk2_eq (c : Dev nD) (t : Fin cfg0.N) : (iblk m c 2 t : Vec Ideal S256x256 .f32) = W m c := by
  obtain ⟨-, -, e2, e3, -⟩ := idx_facts t
  funext y
  show V m c main_arg2 (((cfg0.win 2).blk t).view.emb y) = V m c main_arg2 y
  refine congrArg _ ?_
  funext a; apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- Row p of the window of b at point t is row 512·t + p of b. -/
theorem iblk1_row (c : Dev nD) (t : Fin cfg0.N) (p : Fin 512) (q : Fin 4096) :
    (iblk m c 1 t : Vec Ideal S512x4096 .f32) (ix2 p q) = B m c (ix2 (rowOf t p) q) := by
  obtain ⟨-, -, -, -, e4, e5, -⟩ := idx_facts t
  show V m c main_arg1 (((cfg0.win 1).blk t).view.emb (ix2 p q)) = V m c main_arg1 (ix2 (rowOf t p) q)
  refine congrArg _ ?_
  funext a; apply Fin.ext
  match a with
  | ⟨0, _⟩ => show win0_1.index t (0 : Fin 2) * 512 + 1 * p.val = t.val * 512 + p.val; omega
  | ⟨1, _⟩ => show win0_1.index t (1 : Fin 2) * 4096 + 1 * q.val = q.val; omega

/-- Entry (p, j) of the output block at point t lands at entry (512·t + p, j) of the result array. -/
theorem emb3 (t : Fin cfg0.N) (p : Fin 512) (j : Fin 256) :
    ((cfg0.win 3).blk t).view.emb (ix2 p j) = (ix2 (rowOf t p) j : S4096x256.Idx) := by
  obtain ⟨-, -, -, -, -, -, e6, e7⟩ := idx_facts t
  funext a; apply Fin.ext
  match a with
  | ⟨0, _⟩ => show win0_3.index t (0 : Fin 2) * 512 + 1 * p.val = t.val * 512 + p.val; omega
  | ⟨1, _⟩ => show win0_3.index t (1 : Fin 2) * 256 + 1 * j.val = j.val; omega

/-! ## What the output block and the scratch hold after each point -/

/-- The first point's two payloads, when its x and w blocks are the arrays X and W. -/
theorem caseA_val (X : FVec Ideal S4096x256 .f32) (W : FVec Ideal S256x256 .f32) (x0 : Vec Ideal S4096x256 .f32)
    (x1 : Vec Ideal S512x4096 .f32) (x2 : Vec Ideal S256x256 .f32) (h0 : x0 = X) (h2 : x2 = W) :
    (k0_pay2 (F := Ideal) x1 (k0_pay1 x0 x2), k0_pay1 (F := Ideal) x0 x2) = (eluV (mm x1 (mm X W)), mm X W) := by
  subst h0 h2
  rw [pay1_eq, pay2_eq]

/-- Another point's payload, when the scratch holds S. -/
theorem caseB_val (x1 : Vec Ideal S512x4096 .f32) (s S : Vec Ideal S4096x256 .f32) (hs : s = S) :
    (k0_pay2 (F := Ideal) x1 s, s) = (eluV (mm x1 S), S) := by
  subst hs
  rw [pay2_eq]

/-- At the first point: the output block is elu (block of b · (x · w)) and the scratch is x · w. -/
theorem at_A (c : Dev nD) (t : Fin cfg0.N) (h0 : t.val % 8 = 0) :
    outsAt0 m c t.val t.isLt = (eluV (mm (iblk m c 1 t) (mm (X m c) (W m c))), mm (X m c) (W m c)) :=
  ((outsAt0_A m c t h0).trans (congrArg₂ Prod.mk
      (out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t))
      (scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)))).trans
    (caseA_val (X m c) (W m c) (iblk m c 0 t) (iblk m c 1 t) (iblk m c 2 t) (iblk0_eq m c t) (iblk2_eq m c t))

/-- At any other point, if the point before left S in the scratch: the output block is elu (block of b · S) and the
    scratch still holds S. -/
theorem at_B (c : Dev nD) (t : Fin cfg0.N) (h0 : ¬t.val % 8 = 0) (S : Vec Ideal S4096x256 .f32)
    (hS : (outsAt0 m c (t.val - 1) (Nat.lt_of_le_of_lt (Nat.sub_le _ _) t.isLt)).2 = S) :
    outsAt0 m c t.val t.isLt = (eluV (mm (iblk m c 1 t) S), S) :=
  ((outsAt0_B m c t h0).trans (congrArg₂ Prod.mk
      (out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
        (outsAt0 m c (t.val - 1) (Nat.lt_of_le_of_lt (Nat.sub_le _ _) t.isLt)).2)
      rfl)).trans
    (caseB_val (iblk m c 1 t) _ S hS)

/-- After every point the scratch holds x · w: by induction over the points. -/
theorem scratch_eq (c : Dev nD) : ∀ (n : ℕ) (h : n < cfg0.N), (outsAt0 m c n h).2 = mm (X m c) (W m c)
  | 0, h => congrArg Prod.snd (at_A m c ⟨0, h⟩ rfl)
  | n + 1, h => by
    have hN : cfg0.N = 8 := N_0
    have hB : ¬(⟨n + 1, h⟩ : Fin cfg0.N).val % 8 = 0 := by dsimp only; omega
    exact congrArg Prod.snd (at_B m c ⟨n + 1, h⟩ hB _ (scratch_eq c n (Nat.lt_of_succ_lt h)))

/-- After point t the output block holds elu (block t of b · (x · w)). -/
theorem block_eq (c : Dev nD) (t : Fin cfg0.N) :
    (outsAt0 m c t.val t.isLt).1 = eluV (mm (iblk m c 1 t) (mm (X m c) (W m c))) := by
  by_cases h0 : t.val % 8 = 0
  · exact congrArg Prod.fst (at_A m c t h0)
  · exact congrArg Prod.fst (at_B m c t h0 _ (scratch_eq m c _ _))

/-! ## From blocks to the array -/

/-- What point t writes back is block t of the layer. -/
theorem flushed_eq (c : Dev nD) (t : Fin cfg0.N) :
    (dats m 0 c).flushed 3 t = ((cfg0.win 3).blk t).view.read (Elt Ideal) (eluConv (X m c) (B m c) (W m c)) := by
  rw [flushed3, block_eq]
  refine funext fun (y : S512x256.Idx) => ?_
  obtain ⟨p, j, rfl⟩ : ∃ (p : Fin 512) (j : Fin 256), y = ix2 p j := ⟨y 0, y 1, eq_ix2 y⟩
  show eluV (mm (iblk m c 1 t) (mm (X m c) (W m c))) (ix2 p j)
    = eluConv (X m c) (B m c) (W m c) (((cfg0.win 3).blk t).view.emb (ix2 p j))
  rw [emb3]
  exact eluConv_rows (X m c) (B m c) (W m c) (iblk m c 1 t) (rowOf t p) p j (iblk1_row m c t p)

/-- An index of the result array is in point t's block iff each coordinate is in the block's range on its axis. -/
theorem mem_blk (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0).slice (win0_3.rect t)).set ↔ _
  rw [View.set_slice_whole, Rect.mem_set_unit]
  exact Iff.rfl

/-- The result array after the run is the layer: row r lies in the block of point r / 512. -/
theorem final (c : Dev nD) : (dats m 0 c).arrAt 3 cfg0.N = eluConv (X m c) (B m c) (W m c) :=
  (dats m 0 c).arrAt_eq_of_cover 3 _ (fun t _ => flushed_eq m c t) fun i => by
    have hN : cfg0.N = 8 := N_0
    have hi0 : (i 0).val < 4096 := (i 0).isLt
    have hi1 : (i 1).val < 256 := (i 1).isLt
    obtain ⟨-, -, -, -, -, -, e6, e7⟩ := idx_facts (⟨(i 0).val / 512, by omega⟩ : Fin cfg0.N)
    have e6' : win0_3.index (⟨(i 0).val / 512, by omega⟩ : Fin cfg0.N) (0 : Fin 2) = (i 0).val / 512 := e6
    refine ⟨⟨(i 0).val / 512, by omega⟩, flush0_3 _, ?_⟩
    rw [mem_blk]
    intro a
    match a with
    | ⟨0, _⟩ =>
      show win0_3.index _ (0 : Fin 2) * 512 ≤ (i 0).val ∧ (i 0).val < win0_3.index _ (0 : Fin 2) * 512 + 512
      omega
    | ⟨1, _⟩ =>
      show win0_3.index _ (1 : Fin 2) * 256 ≤ (i 1).val ∧ (i 1).val < win0_3.index _ (1 : Fin 2) * 256 + 256
      omega

/-! ## The run, read -/

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v0) = eluConv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KValue

end
-- ==== Proof.RefRun.lean ====
/-
  The reference's @main as a list of its seventeen host operations, and its run read back.

  @main takes the product x · w, then b · (x · w), then calls the exponential linear unit, whose body (with the two
  selects it calls in turn) is laid out inline at the call: the comparison with a broadcast zero twice, a zero put
  where the entry is positive, expm1 of that, the product with a broadcast one, and the outer select. Every weakly
  fair execution terminates with the result buffer at the operations' composed term of the three arguments, and the
  arguments unchanged.
-/
import proofs.«112365_g34471407517844_cont_8to1_b_523_19_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the called functions' bodies inline over the call's buffers. -/
abbrev ops : List (HloOp τ sig (Elt F)) :=
  [ binary main_arg0 main_arg2 main_v0 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    binary main_arg1 main_v0 main_v1 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    TRef.nullary main_call0.cst (constant S_ .f32 0x00000000#32),
    TRef.unary main_call0.cst main_call0.v0 (broadcastInDim S4096x256 ![] bcast_S_S4096x256),
    TRef.binary (.of main_v1) main_call0.v0 main_call0.v1 (cmpf .ogt),
    TRef.nullary main_call0.cst_0 (constant S_ .f32 0x00000000#32),
    TRef.unary main_call0.cst_0 main_call0.v2 (broadcastInDim S4096x256 ![] bcast_S_S4096x256),
    TRef.binary (.of main_v1) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4096x256 ![] bcast_S_S4096x256),
    TRef.ternary main_call0.v3 main_call0.call0.v1 (.of main_v1) main_call0.call0.v2 select,
    TRef.unary main_call0.call0.v2 main_call0.v5 Host.expm1,
    TRef.nullary main_call0.cst_2 (constant S_ .f32 0x3F800000#32),
    TRef.unary main_call0.cst_2 main_call0.v6 (broadcastInDim S4096x256 ![] bcast_S_S4096x256),
    TRef.binary main_call0.v6 main_call0.v5 main_call0.v7 mulf,
    TRef.ternary main_call0.v1 (.of main_v1) main_call0.v7 main_call0.call1.v0 select ]

set_option maxRecDepth 1024 in
/-- @main is that straight line: the called functions unfolded at their calls, sequencing reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub ..⟩

/-- The result as one term of the arguments: with h = b · (x · w), the select on h > 0 between h and
    1 · expm1 (the select on h > 0 between 0 and h). -/
def out (x : FVec F S4096x256 .f32) (b : FVec F S4096x4096 .f32) (w : FVec F S256x256 .f32) : FVec F S4096x256 .f32 :=
  let h : FVec F S4096x256 .f32 := Host.dotGeneral dot_S4096x4096_S4096x256_S4096x256_1_0_0_1_n_n none b
    (Host.dotGeneral dot_S4096x256_S256x256_S4096x256_1_0_0_1_n_n none x w)
  select (cmpf .ogt h (broadcastInDim S4096x256 ![] bcast_S_S4096x256 (constant S_ .f32 0x00000000#32))) h
    (mulf (broadcastInDim S4096x256 ![] bcast_S_S4096x256 (constant S_ .f32 0x3F800000#32))
      (Host.expm1 (select (cmpf .ogt h (broadcastInDim S4096x256 ![] bcast_S_S4096x256 (constant S_ .f32 0x00000000#32)))
        (broadcastInDim S4096x256 ![] bcast_S_S4096x256 (constant S_ .f32 0x00000000#32)) h)))

/-- On every device, from any memory with zero counters: every weakly fair execution of @main terminates with the
    result at `out` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.HostRun

end
-- ==== Proof.RefValue.lean ====
/-
  The reference's result term is the layer elu (b · (x · w)) of its arguments.

  Both host products contract the left operand's columns against the right operand's rows, so each is the
  index-by-index product; what follows them is the host's spelling of the exponential linear unit.
-/
import proofs.«112365_g34471407517844_cont_8to1_b_523_19_alg».proof.Proof.RefRun
import proofs.«112365_g34471407517844_cont_8to1_b_523_19_alg».proof.Proof.LibEluConv

noncomputable section

namespace Cert.ReferenceIdeal.RefValue

open Cert.ReferenceIdeal Cert.ReferenceIdeal.Gen Idealize.ShloMosaic Idealize.ShloMosaic.ValueIdx
open Cert.LibElu Cert.LibMatProd Cert.LibEluConv

/-- The reference's result is the layer of its three arguments. -/
theorem out_eq (x : FVec Ideal S4096x256 .f32) (b : FVec Ideal S4096x4096 .f32) (w : FVec Ideal S256x256 .f32) :
    HostRun.out (F := Ideal) x b w = eluConv x b w := by
  unfold HostRun.out eluConv
  dsimp only
  rw [hostDot_eq dot_S4096x256_S256x256_S4096x256_1_0_0_1_n_n rfl rfl (fun _ _ => rfl) (fun _ _ => rfl)
      (fun _ _ => rfl) (fun _ _ => rfl) none x w,
    hostDot_eq dot_S4096x4096_S4096x256_S4096x256_1_0_0_1_n_n rfl rfl (fun _ _ => rfl) (fun _ _ => rfl)
      (fun _ _ => rfl) (fun _ _ => rfl) none b (mm x w)]
  exact host_elu bcast_S_S4096x256 _

end Cert.ReferenceIdeal.RefValue

end
-- ==== Proof.lean ====
/-
  The kernel computes elu (b · (x · w)) for x of shape [4096, 256], w of shape [256, 256] and b of shape
  [4096, 4096]; so does the reference. Both take the two products in the same order, and sums and products on the
  extended reals are total, so the two results agree at every input: the precondition is never opened.

  The kernel side: the grid's first point stores x · w into a scratch that every later point reads back, and point t
  writes rows 512·t … 512·t + 511 of the result, each the exponential linear unit (written with the exponent clamped
  at zero) of a row of b times x · w (Proof/KernelValue.lean over the generated frame run and value leg).
  The reference side: two host products and the host's spelling of the exponential linear unit, with expm1
  (Proof/RefRun.lean, Proof/RefValue.lean). On the extended reals exp (min h 0) - 1 where h ≤ 0 and 1 · expm1 h are
  both exp h - 1, and both sides return h where h > 0.

  The three frames are the generated frame certificates and the reference's run with its result dropped; the
  idealized kernel is the kernel's own text read at the extended reals, so nothing is owed for that step.
-/
import proofs.«112365_g34471407517844_cont_8to1_b_523_19_alg».proof.Defs
import proofs.«112365_g34471407517844_cont_8to1_b_523_19_alg».proof.Proof.Gen.Kernel
import proofs.«112365_g34471407517844_cont_8to1_b_523_19_alg».proof.Proof.Gen.Kernel.Skeleton
import proofs.«112365_g34471407517844_cont_8to1_b_523_19_alg».proof.Proof.Gen.Kernel.Launch
import proofs.«112365_g34471407517844_cont_8to1_b_523_19_alg».proof.Proof.Gen.Kernel.Points
import proofs.«112365_g34471407517844_cont_8to1_b_523_19_alg».proof.Proof.Gen.Kernel.Frame
import proofs.«112365_g34471407517844_cont_8to1_b_523_19_alg».proof.Proof.Gen.KernelIdeal
import proofs.«112365_g34471407517844_cont_8to1_b_523_19_alg».proof.Proof.Gen.KernelIdeal.Skeleton
import proofs.«112365_g34471407517844_cont_8to1_b_523_19_alg».proof.Proof.Gen.KernelIdeal.Launch
import proofs.«112365_g34471407517844_cont_8to1_b_523_19_alg».proof.Proof.Gen.KernelIdeal.Points
import proofs.«112365_g34471407517844_cont_8to1_b_523_19_alg».proof.Proof.Gen.KernelIdeal.Frame
import proofs.«112365_g34471407517844_cont_8to1_b_523_19_alg».proof.Proof.Gen.KernelIdeal.Value
import proofs.«112365_g34471407517844_cont_8to1_b_523_19_alg».proof.Proof.Gen.ReferenceIdeal
import proofs.«112365_g34471407517844_cont_8to1_b_523_19_alg».proof.Proof.Gen.Pre_finite_inputs
import proofs.«112365_g34471407517844_cont_8to1_b_523_19_alg».proof.Proof.KernelValue
import proofs.«112365_g34471407517844_cont_8to1_b_523_19_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- Both runs end with the result at the layer elu (b · (x · w)) of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2]
  exact Cert.ReferenceIdeal.RefValue.out_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
